-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S1 : Shape := ⟨1, ![1]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S50000x128 .f32) (main_arg1 : FVec F S128x128 .f32) (main_arg2 : FVec F S1 .f32) (main_arg3 : IVec S1600000 32) (main_arg4 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S1 : Shape := ⟨1, ![1]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 28
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S1, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S50000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S50000x1, .f32⟩
  | .hbm, ⟨27, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  inb_S1_S1_0 : ∀ a, (![0] : Fin 1 → Nat) a + S1.size a ≤ S1.size a
  h_S1 : 0 < S1.numel
  inpos_S1_p0 : ∀ a, (![0] : Fin 1 → Nat) a < S1.size a
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S1 : Shape := ⟨1, ![1]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S1, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S50000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .i1⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  transposes_S128x128_S128x128_1_0 : S128x128.Transposes [1, 0] S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S1_S_ : S1.ShapeCasts S_
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.MatmulBlock.lean ====
/-
  The first kernel's block, entry by entry.

  At one grid point the body multiplies a block of 5000 rows of the node features by the whole 128×128 weight into
  a zero accumulator. On the extended reals the two changes of float format on the way in are the identity, so
  entry `(p, q)` of what it stores is the plain sum over `k` of `x (p, k) * w (k, q)`.
-/
import proofs.«111967_j36155034698032_1_alg».proof.Proof.Gen.KernelIdeal.Skeleton
import proofs.«111967_j36155034698032_1_alg».proof.Proof.LibPlainDot
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The block product's dimension numbers are those of a plain rows-by-columns product. -/
theorem dot_block_plain :
    dot_S5000x128_S128x128_S5000x128_1_0_0_1_n_n = DotDims.plain 5000 128 128 := rfl

/-- Entry `(p, q)` of the stored block: row `p` of the loaded rows against column `q` of the loaded weight. -/
theorem matmul_block_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  refine (PlainDot.matmul_zero_apply _ dot_block_plain none _ _ p q).trans ?_
  refine Finset.sum_congr rfl fun k _ => ?_
  rw [truncf_apply, truncf_apply, shapeCast_self]

end Cert.KernelIdeal.Hand

end
-- ==== Proof.Spec.lean ====
/-
  What both programs compute, as functions on arrays of extended reals.

  A graph layer over 50000 nodes with 128 features: every node's features are projected by a 128×128 weight
  (`project`), the projected rows of a node's in-neighbours are added up along the edge list, the sum is divided by
  the node's in-degree plus a small constant, and the quotient `v` is kept where `v ≥ 0` and scaled by a slope `α`
  elsewhere (`activate`, applied entry by entry in `normalise`). The summation along the edges is the same text in
  both programs and is never opened here; these definitions are the two dense stages around it.
-/
import Idealize.ShloMosaic.PureOps.Ideal
import Idealize.ShloMosaic.PureOps.Vector
import Idealize.ShloMosaic.Lib.ValueIdx

noncomputable section

namespace MeanAggregate

open Idealize.ShloMosaic Idealize.ShloMosaic.ValueIdx

/-- The node-feature arrays: 50000 rows of 128 entries. -/
abbrev Nodes : Shape := ⟨2, ![50000, 128]⟩
/-- The weight, already transposed: entry `(k, q)` multiplies input feature `k` into output feature `q`. -/
abbrev Weight : Shape := ⟨2, ![128, 128]⟩
/-- One number per node, kept as a column. -/
abbrev Column : Shape := ⟨2, ![50000, 1]⟩
/-- The single slope of the rectifier. -/
abbrev Slope : Shape := ⟨1, ![1]⟩

/-- The projected features: entry `(p, q)` is row `p` of `x` against column `q` of `w`. -/
def project (x : FVec Ideal Nodes .f32) (w : FVec Ideal Weight .f32) : FVec Ideal Nodes .f32 :=
  fun i => ∑ k : Fin 128, x (ix2 (⟨(i 0).val, idx2_lt0 i⟩ : Fin 50000) k) * w (ix2 k (⟨(i 1).val, idx2_lt1 i⟩ : Fin 128))

theorem project_apply (x : FVec Ideal Nodes .f32) (w : FVec Ideal Weight .f32) (p : Fin 50000) (q : Fin 128) :
    project x w (ix2 p q) = ∑ k : Fin 128, x (ix2 p k) * w (ix2 k q) := rfl

/-- The mean of a node's gathered features, `a / (d + ε)` with `ε` the f32 nearest to `1e-8`. -/
def mean (a d : EReal) : EReal := Ideal.div a (d + Ideal.ofBits .f32 0x322BCC77#32)

/-- The rectifier with slope `α` on the negative side: `v` where `v ≥ 0`, `α · v` elsewhere. -/
def leaky (α v : EReal) : EReal :=
  Scalar.select (Ideal.cmp .oge v (Ideal.ofBits .f32 0x00000000#32)) v (α * v)

/-- The layer's last stage, entry by entry: the aggregated features `a` of node `p` over its degree `d p`, rectified. -/
def normalise (a : FVec Ideal Nodes .f32) (d : FVec Ideal Column .f32) (α : FVec Ideal Slope .f32) : FVec Ideal Nodes .f32 :=
  fun i => leaky (α (ix1 (0 : Fin 1))) (mean (a i) (d (ix2 (⟨(i 0).val, idx2_lt0 i⟩ : Fin 50000) (0 : Fin 1))))

theorem normalise_apply (a : FVec Ideal Nodes .f32) (d : FVec Ideal Column .f32) (α : FVec Ideal Slope .f32)
    (p : Fin 50000) (q : Fin 128) :
    normalise a d α (ix2 p q) = leaky (α (ix1 (0 : Fin 1))) (mean (a (ix2 p q)) (d (ix2 p (0 : Fin 1)))) := rfl

end MeanAggregate

end
-- ==== Proof.PreluBlock.lean ====
/-
  The second kernel's block, entry by entry.

  At one grid point the body reads 5000 rows of aggregated features, the same 5000 rows of the degree column and the
  slope; it spreads the column over the 128 features, adds the small constant, divides, and rectifies. Entry `(p, q)`
  of what it stores is `leaky α (mean (a (p, q)) (d (p, 0)))`.
-/
import proofs.«111967_j36155034698032_1_alg».proof.Proof.Gen.KernelIdeal.Skeleton
import proofs.«111967_j36155034698032_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- The degree column spread over the features, read at `(p, q)`, is the column's row `p`. -/
theorem spread_column_apply (d : FVec Ideal S5000x1 .f32) (p : Fin 5000) (q : Fin 128) :
    broadcastTo S5000x128 d broadcasts_S5000x1_S5000x128 (ix2 p q) = d (ix2 p (0 : Fin 1)) :=
  broadcastTo_apply d broadcasts_S5000x1_S5000x128 (ix2 p q) (ix2 p (0 : Fin 1)) fun a => by
    match a with
    | ⟨0, _⟩ => show p.val = if (5000 : Nat) = 1 then 0 else p.val; rw [if_neg (by decide)]
    | ⟨1, _⟩ => show (0 : Nat) = if (1 : Nat) = 1 then 0 else q.val; rw [if_pos rfl]

/-- Entry `(p, q)` of the stored block. -/
theorem prelu_block_apply (al : Vec Ideal S1 .f32) (d : Vec Ideal S5000x1 .f32) (a : Vec Ideal S5000x128 .f32)
    (p : Fin 5000) (q : Fin 128) :
    k1_pay1 (F := Ideal) al d a (ix2 p q)
      = MeanAggregate.leaky (al (ix1 (0 : Fin 1))) (MeanAggregate.mean (a (ix2 p q)) (d (ix2 p (0 : Fin 1)))) := by
  unfold k1_pay1
  simp only [shapeCast_self, select_apply, cmpf_apply, mulf_apply, divf_apply, addf_apply, broadcast_apply,
    spread_column_apply]
  have he : extractAt ![0] al inpos_S1_p0 = al (ix1 (0 : Fin 1)) :=
    congrArg al (funext fun a => by match a with | ⟨0, _⟩ => rfl)
  rw [he]
  rfl

end Cert.KernelIdeal.Hand

end
-- ==== Proof.KernelArrays.lean ====
/-
  From blocks to whole arrays, for both kernels.

  Each kernel walks ten grid points; point `t` reads rows `5000 t … 5000 t + 4999` of its row-blocked operands (and the
  whole of the small operand it keeps in place) and writes the same rows of its result. So what point `t` writes back is
  block `t` of ONE function of the arrays the kernel found — `project` for the first kernel, `normalise` for the
  second — and the ten blocks tile the 50000 rows: the result array ends holding that function.
  Everything is stated at the contents `V` a kernel finds when it is entered, whatever they are.
-/
import proofs.«111967_j36155034698032_1_alg».proof.Proof.Gen.KernelIdeal.Frame
import proofs.«111967_j36155034698032_1_alg».proof.Proof.MatmulBlock
import proofs.«111967_j36155034698032_1_alg».proof.Proof.PreluBlock
import proofs.«111967_j36155034698032_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-! ## The first kernel: the projection -/

/-- The printed index maps of the first kernel over its grid: the row-blocked windows sit at block row `t`, the weight
    stays at its one block. -/
theorem block_rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` holds rows `5000 t + p` of the features. -/
theorem features_block_apply (c : Dev nD) (t : Fin cfg0.N) (p : Fin 5000) (k : Fin 128) (i : S50000x128.Idx)
    (h0 : (i 0).val = 5000 * t.val + p.val) (h1 : (i 1).val = k.val) :
    (iblk0 V c 0 t : Vec Ideal S5000x128 .f32) (ix2 p k) = (V c main_arg0 : S50000x128.Idx → Elt Ideal .f32) i := by
  obtain ⟨e0, e1, -⟩ := block_rows0 t
  unfold iblk0
  rw [View.read_apply]
  show (V c main_arg0 : S50000x128.Idx → Elt Ideal .f32) _ = _
  refine congrArg (V c main_arg0 : S50000x128.Idx → Elt Ideal .f32) (funext fun a => Fin.ext ?_)
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The weight block is the whole weight at every point. -/
theorem weight_block_apply (c : Dev nD) (t : Fin cfg0.N) (k q : Fin 128) :
    (iblk0 V c 1 t : Vec Ideal S128x128 .f32) (ix2 k q) = (V c main_v0 : S128x128.Idx → Elt Ideal .f32) (ix2 k q) := by
  obtain ⟨-, -, e2, e3, -⟩ := block_rows0 t
  unfold iblk0
  rw [View.read_apply]
  show (V c main_v0 : S128x128.Idx → Elt Ideal .f32) _ = _
  refine congrArg (V c main_v0 : S128x128.Idx → Elt Ideal .f32) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- WHAT POINT `t` WRITES BACK is block `t` of the projection of the features by the weight as the kernel found them. -/
theorem projected_block (c : Dev nD) (t : Fin cfg0.N) :
    (dat0 V c).flushed 2 t
      = ((cfg0.win 2).blk t).view.read (Elt Ideal) (MeanAggregate.project (V c main_arg0) (V c main_v0)) := by
  show (cfg0.win 2).cut (grid0.coords t) ((dat0 V c).after 2 t) = _
  rw [after0_2]
  unfold out0_2
  rw [View.canon_unit_zero zero_offsets2]
  simp only [View.ld_unit_zero (S := S5000x128) zero_offsets2, View.ld_unit_zero (S := S128x128) zero_offsets2]
  funext j
  obtain ⟨p, q, rfl⟩ : ∃ (p : Fin 5000) (q : Fin 128), j = ix2 p q := ⟨j 0, j 1, eq_ix2 j⟩
  obtain ⟨-, -, -, -, e4, e5⟩ := block_rows0 t
  have hN : cfg0.N = 10 := N_0
  have ht : t.val < 10 := hN ▸ t.isLt
  have hrow : 5000 * t.val + p.val < 50000 := by have := p.isLt; omega
  have hemb : ((cfg0.win 2).blk t).view.emb (ix2 p q) = (ix2 (⟨5000 * t.val + p.val, hrow⟩ : Fin 50000) q : S50000x128.Idx) := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  show k0_pay1 (iblk0 V c 0 t) (iblk0 V c 1 t) (ix2 p q)
    = MeanAggregate.project (V c main_arg0) (V c main_v0) (((cfg0.win 2).blk t).view.emb (ix2 p q))
  rw [hemb, MeanAggregate.project_apply]
  refine (matmul_block_apply (iblk0 V c 0 t) (iblk0 V c 1 t) p q).trans ?_
  refine Finset.sum_congr rfl fun k _ => ?_
  rw [features_block_apply V c t p k (ix2 (⟨5000 * t.val + p.val, hrow⟩ : Fin 50000) k) rfl rfl,
    weight_block_apply V c t k q]

/-- An index of the projected array is in point `t`'s block iff each coordinate is in the block's range on its axis. -/
theorem mem_projected_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v1).slice (win0_2.rect t)).set ↔ _
  rw [View.set_slice_whole, Rect.mem_set_unit]
  exact Iff.rfl

/-- Row `r` of the projected array is written back by point `r / 5000`. -/
theorem projected_cover (i : S50000x128.Idx) :
    ∃ t : Fin cfg0.N, (cfg0.win 2).flush t = true ∧ i ∈ ((cfg0.win 2).blk t).view.set := by
  have hN : cfg0.N = 10 := N_0
  have hi0 : (i 0).val < 50000 := idx2_lt0 i
  have hi1 : (i 1).val < 128 := idx2_lt1 i
  refine ⟨⟨(i 0).val / 5000, by rw [hN]; omega⟩, flush0_2 _, ?_⟩
  rw [mem_projected_block]
  obtain ⟨-, -, -, -, e4, e5⟩ := block_rows0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE PROJECTED ARRAY after the first kernel: the projection of the features by the weight as the kernel found them. -/
theorem projected_array (c : Dev nD) :
    (dat0 V c).arrAt 2 cfg0.N = MeanAggregate.project (V c main_arg0) (V c main_v0) :=
  (dat0 V c).arrAt_eq_of_cover 2 (MeanAggregate.project (V c main_arg0) (V c main_v0))
    (fun t _ => projected_block V c t) projected_cover

/-! ## The second kernel: the mean and the rectifier -/

/-- The printed index maps of the second kernel over its grid: the three row-blocked windows sit at block row `t`, the
    slope stays at its one block. -/
theorem block_rows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The block of aggregated features at point `t` holds rows `5000 t + p` of the aggregated array. -/
theorem sums_block_apply (c : Dev nD) (t : Fin cfg1.N) (p : Fin 5000) (q : Fin 128) (i : S50000x128.Idx)
    (h0 : (i 0).val = 5000 * t.val + p.val) (h1 : (i 1).val = q.val) :
    (iblk1 V c 0 t : Vec Ideal S5000x128 .f32) (ix2 p q) = (V c main_v11 : S50000x128.Idx → Elt Ideal .f32) i := by
  obtain ⟨e0, e1, -⟩ := block_rows1 t
  unfold iblk1
  rw [View.read_apply]
  show (V c main_v11 : S50000x128.Idx → Elt Ideal .f32) _ = _
  refine congrArg (V c main_v11 : S50000x128.Idx → Elt Ideal .f32) (funext fun a => Fin.ext ?_)
  match a with
  | ⟨0, _⟩ => show win1_0.index t (0 : Fin 2) * 5000 + 1 * p.val = (i 0).val; rw [e0, h0]; omega
  | ⟨1, _⟩ => show win1_0.index t (1 : Fin 2) * 128 + 1 * q.val = (i 1).val; rw [e1, h1]; omega

/-- The block of the degree column at point `t` holds rows `5000 t + p` of the column. -/
theorem degree_block_apply (c : Dev nD) (t : Fin cfg1.N) (p : Fin 5000) (i : S50000x1.Idx)
    (h0 : (i 0).val = 5000 * t.val + p.val) :
    (iblk1 V c 1 t : Vec Ideal S5000x1 .f32) (ix2 p (0 : Fin 1)) = (V c main_v16 : S50000x1.Idx → Elt Ideal .f32) i := by
  obtain ⟨-, -, e2, e3, -⟩ := block_rows1 t
  have hi1 : (i 1).val < 1 := idx2_lt1 i
  unfold iblk1
  rw [View.read_apply]
  show (V c main_v16 : S50000x1.Idx → Elt Ideal .f32) _ = _
  refine congrArg (V c main_v16 : S50000x1.Idx → Elt Ideal .f32) (funext fun a => Fin.ext ?_)
  match a with
  | ⟨0, _⟩ => show win1_1.index t (0 : Fin 2) * 5000 + 1 * p.val = (i 0).val; rw [e2, h0]; omega
  | ⟨1, _⟩ => show win1_1.index t (1 : Fin 2) * 1 + 1 * 0 = (i 1).val; rw [e3]; omega

/-- The slope block is the whole slope at every point. -/
theorem slope_block_apply (c : Dev nD) (t : Fin cfg1.N) :
    (iblk1 V c 2 t : Vec Ideal S1 .f32) (ix1 (0 : Fin 1)) = (V c main_arg2 : S1.Idx → Elt Ideal .f32) (ix1 (0 : Fin 1)) := by
  obtain ⟨-, -, -, -, e4, -⟩ := block_rows1 t
  unfold iblk1
  rw [View.read_apply]
  show (V c main_arg2 : S1.Idx → Elt Ideal .f32) _ = _
  refine congrArg (V c main_arg2 : S1.Idx → Elt Ideal .f32) (funext fun a => Fin.ext ?_)
  match a with
  | ⟨0, _⟩ => show win1_2.index t (0 : Fin 1) * 1 + 1 * 0 = 0; rw [e4]

/-- WHAT POINT `t` WRITES BACK is block `t` of the rectified mean of the arrays as the kernel found them. -/
theorem normalised_block (c : Dev nD) (t : Fin cfg1.N) :
    (dat1 V c).flushed 3 t
      = ((cfg1.win 3).blk t).view.read (Elt Ideal)
          (MeanAggregate.normalise (V c main_v11) (V c main_v16) (V c main_arg2)) := by
  show (cfg1.win 3).cut (grid1.coords t) ((dat1 V c).after 3 t) = _
  rw [after1_3]
  unfold out1_3
  rw [View.canon_unit_zero zero_offsets2]
  simp only [View.ld_unit_zero (S := S5000x128) zero_offsets2, View.ld_unit_zero (S := S5000x1) zero_offsets2,
    View.ld_unit_zero (S := S1) zero_offsets1]
  funext j
  obtain ⟨p, q, rfl⟩ : ∃ (p : Fin 5000) (q : Fin 128), j = ix2 p q := ⟨j 0, j 1, eq_ix2 j⟩
  obtain ⟨-, -, -, -, -, e5, e6⟩ := block_rows1 t
  have hN : cfg1.N = 10 := N_1
  have ht : t.val < 10 := hN ▸ t.isLt
  have hrow : 5000 * t.val + p.val < 50000 := by have := p.isLt; omega
  have hemb : ((cfg1.win 3).blk t).view.emb (ix2 p q) = (ix2 (⟨5000 * t.val + p.val, hrow⟩ : Fin 50000) q : S50000x128.Idx) := by
    funext a; apply Fin.ext
    match a with
    | ⟨0, _⟩ => show win1_3.index t (0 : Fin 2) * 5000 + 1 * p.val = 5000 * t.val + p.val; rw [e5]; omega
    | ⟨1, _⟩ => show win1_3.index t (1 : Fin 2) * 128 + 1 * q.val = q.val; rw [e6]; omega
  show k1_pay1 (iblk1 V c 2 t) (iblk1 V c 1 t) (iblk1 V c 0 t) (ix2 p q)
    = MeanAggregate.normalise (V c main_v11) (V c main_v16) (V c main_arg2) (((cfg1.win 3).blk t).view.emb (ix2 p q))
  rw [hemb, MeanAggregate.normalise_apply]
  refine (prelu_block_apply (iblk1 V c 2 t) (iblk1 V c 1 t) (iblk1 V c 0 t) p q).trans ?_
  rw [sums_block_apply V c t p q (ix2 (⟨5000 * t.val + p.val, hrow⟩ : Fin 50000) q) rfl rfl,
    degree_block_apply V c t p (ix2 (⟨5000 * t.val + p.val, hrow⟩ : Fin 50000) (0 : Fin 1)) rfl,
    slope_block_apply V c t]

/-- An index of the result array is in point `t`'s block iff each coordinate is in the block's range on its axis. -/
theorem mem_normalised_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v17).slice (win1_3.rect t)).set ↔ _
  rw [View.set_slice_whole, Rect.mem_set_unit]
  exact Iff.rfl

/-- Row `r` of the result array is written back by point `r / 5000`. -/
theorem normalised_cover (i : S50000x128.Idx) :
    ∃ t : Fin cfg1.N, (cfg1.win 3).flush t = true ∧ i ∈ ((cfg1.win 3).blk t).view.set := by
  have hN : cfg1.N = 10 := N_1
  have hi0 : (i 0).val < 50000 := idx2_lt0 i
  have hi1 : (i 1).val < 128 := idx2_lt1 i
  refine ⟨⟨(i 0).val / 5000, by rw [hN]; omega⟩, flush1_3 _, ?_⟩
  rw [mem_normalised_block]
  obtain ⟨-, -, -, -, -, e5, e6⟩ := block_rows1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e5]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e6]; omega

/-- THE RESULT ARRAY after the second kernel: the rectified mean of the arrays as the kernel found them. -/
theorem normalised_array (c : Dev nD) :
    (dat1 V c).arrAt 3 cfg1.N = MeanAggregate.normalise (V c main_v11) (V c main_v16) (V c main_arg2) :=
  (dat1 V c).arrAt_eq_of_cover 3 (MeanAggregate.normalise (V c main_v11) (V c main_v16) (V c main_arg2))
    (fun t _ => normalised_block V c t) normalised_cover

end Cert.KernelIdeal.Hand

end
-- ==== Proof.KernelRun.lean ====
/-
  The kernel program's run, with its result named.

  The program is four stretches: the weight is transposed on the host, the first kernel projects the features, the
  host sums the projected rows along the edges and counts the degrees, the second kernel divides and rectifies.
  Every weakly fair execution ends with each buffer that outlives the kernels at the contents the four stretches
  compose to (`run_buffers`). Read at the result buffer, through the two kernels' arrays (the projection, the
  rectified mean) and the host operations between them, that is `normalise (aggregate (project x wᵀ) rows cols)
  (degree rows) α` of the five arguments (`result_eq`), and the arguments are as launched.
-/
import proofs.«111967_j36155034698032_1_alg».proof.Proof.Gen.KernelIdeal.Frame
import proofs.«111967_j36155034698032_1_alg».proof.Proof.KernelArrays
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives the
    kernels at the contents the four stretches compose to. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Run

/-! ## The result buffer, read through the four stretches (on the extended reals) -/

section Value

open MeanAggregate (project normalise)

/-- The summation along the edges, as the host operations between the kernels state it: the rows `y` gathered at the
    edges' sources (a negative source index counted from the end) and added into zeros at the edges' destinations. -/
def aggregate (y : (⟨S50000x128, .f32⟩ : BufTy).Contents (Elt Ideal))
    (rows cols : (⟨S1600000, .i32⟩ : BufTy).Contents (Elt Ideal)) : (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 rows)
    (Host.gather gather_S50000x128_S1600000x1_S1600000x128_1_0_n_n_0_1_1128 y
      (broadcastInDim S1600000x1 ![0] bcast_S1600000_S1600000x1_0
        (select (cmpi .slt cols (broadcastInDim S1600000 ![] bcast_S_S1600000 (constantI S_ 32 0#32)))
          (addi cols (broadcastInDim S1600000 ![] bcast_S_S1600000 (constantI S_ 32 50000#32))) cols)))

/-- The in-degrees as a column: ones added into zeros at the edges' destinations. -/
def degree (rows : (⟨S1600000, .i32⟩ : BufTy).Contents (Elt Ideal)) : (⟨S50000x1, .f32⟩ : BufTy).Contents (Elt Ideal) :=
  broadcastInDim S50000x1 ![0] bcast_S50000_S50000x1_0
    (Host.scatterAdd scatter_S50000_S1600000x1_S1600000_n_0_0_1
      (broadcastInDim S50000 ![] bcast_S_S50000 (constant (F := Ideal) S_ .f32 0x00000000#32))
      (broadcastInDim S1600000x1 ![0] bcast_S1600000_S1600000x1_0 rows)
      (broadcastInDim S1600000 ![] bcast_S_S1600000 (constant (F := Ideal) S_ .f32 0x3F800000#32)))

variable (m : (ℓ : Loc nD τ sig) → Buf (Elt Ideal) ℓ) (ρ : Dev nD → PrngReg)

/-- What the result buffer ends holding, as one function of the five arguments. -/
def result (c : Dev nD) : Buf (Elt Ideal) ((c : Thread nD τ).loc main_v17) :=
  normalise
    (aggregate
      (project (m ((c : Thread nD τ).loc main_arg0))
        (transpose S128x128 [1, 0] (m ((c : Thread nD τ).loc main_arg1)) transposes_S128x128_S128x128_1_0))
      (m ((c : Thread nD τ).loc main_arg3)) (m ((c : Thread nD τ).loc main_arg4)))
    (degree (m ((c : Thread nD τ).loc main_arg3)))
    (m ((c : Thread nD τ).loc main_arg2))

/-- The first kernel finds the features as launched -/
theorem entry1_features (c : Dev nD) : V1 m ρ c main_arg0 = m ((c : Thread nD τ).loc main_arg0) := by
  show StableHlo.after hostOps0 (W0 m ρ c) (Proc.devRef .tc main_arg0) = _
  after_results

/-- and the weight transposed. -/
theorem entry1_weight (c : Dev nD) :
    V1 m ρ c main_v0 = transpose S128x128 [1, 0] (m ((c : Thread nD τ).loc main_arg1)) transposes_S128x128_S128x128_1_0 := by
  show StableHlo.after hostOps0 (W0 m ρ c) (Proc.devRef .tc main_v0) = _
  after_results

/-- So it leaves the projection of the features by the transposed weight. -/
theorem exit1_projected (c : Dev nD) :
    W2 m ρ c (Proc.devRef .tc main_v1)
      = project (m ((c : Thread nD τ).loc main_arg0))
          (transpose S128x128 [1, 0] (m ((c : Thread nD τ).loc main_arg1)) transposes_S128x128_S128x128_1_0) :=
  (W2_arr m ρ c 2).trans ((projected_array (V1 m ρ) c).trans (by rw [entry1_features, entry1_weight]))

/-- The edge lists and the slope pass the transposition and the first kernel untouched. -/
theorem exit1_rows (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem exit1_cols (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem exit1_slope (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

/-- The second kernel finds the projected rows summed along the edges, -/
theorem entry2_sums (c : Dev nD) :
    V3 m ρ c main_v11 = aggregate (W2 m ρ c (Proc.devRef .tc main_v1)) (W2 m ρ c (Proc.devRef .tc main_arg3))
      (W2 m ρ c (Proc.devRef .tc main_arg4)) := by
  show StableHlo.after hostOps1 (W2 m ρ c) (Proc.devRef .tc main_v11) = _
  after_results; rfl

/-- the degree column, -/
theorem entry2_degree (c : Dev nD) : V3 m ρ c main_v16 = degree (W2 m ρ c (Proc.devRef .tc main_arg3)) := by
  show StableHlo.after hostOps1 (W2 m ρ c) (Proc.devRef .tc main_v16) = _
  after_results; rfl

/-- and the slope as it was. -/
theorem entry2_slope (c : Dev nD) : V3 m ρ c main_arg2 = W2 m ρ c (Proc.devRef .tc main_arg2) := by
  show StableHlo.after hostOps1 (W2 m ρ c) (Proc.devRef .tc main_arg2) = _
  after_results

/-- THE RESULT BUFFER after the last stretch. -/
theorem result_eq (c : Dev nD) : W4 m ρ c (Proc.devRef .tc main_v17) = result m c :=
  (W4_arr m ρ c 3).trans ((normalised_array (V3 m ρ) c).trans (by
    rw [entry2_sums, entry2_degree, entry2_slope, exit1_projected, exit1_rows, exit1_cols, exit1_slope]; rfl))

/-- The run, read: the result buffer at `result`, the arguments as launched. -/
theorem run : θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v17 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩)
    (run_buffers m ρ)

end Value

end Cert.KernelIdeal.Hand

end
-- ==== Proof.RefValue.lean ====
/-
  The reference, read against the same two functions.

  Its product of the features with the transposed weight is `project` (a `dot_general` contracting the features' axis 1
  with the transposed weight's axis 0 is the plain sum over the contracted coordinate), and its last nine operations —
  the small constant added to the degree column, the column spread over the features, the quotient, the comparison
  with zero, the slope spread and multiplied, the selection — are `normalise` of the aggregated features, the degree
  column and the slope, entry by entry. The summation along the edges in between is left as the reference states it.
-/
import proofs.«111967_j36155034698032_1_alg».proof.Proof.Gen.ReferenceIdeal.Run
import proofs.«111967_j36155034698032_1_alg».proof.Proof.Gen.ReferenceIdeal.Read
import proofs.«111967_j36155034698032_1_alg».proof.Proof.LibPlainDot
import proofs.«111967_j36155034698032_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's product has the dimension numbers of a plain rows-by-columns product. -/
theorem dot_whole_plain :
    dot_S50000x128_S128x128_S50000x128_1_0_0_1_n_n = DotDims.plain 50000 128 128 := rfl

/-- The reference's product of the features with the transposed weight is the projection. -/
theorem product_eq (x0 : (⟨S50000x128, .f32⟩ : BufTy).Contents (Elt Ideal)) (x1 : (⟨S128x128, .f32⟩ : BufTy).Contents (Elt Ideal)) :
    val_main_v1 (F := Ideal) x0 x1 = MeanAggregate.project x0 (val_main_v0 (F := Ideal) x1) := by
  funext i
  obtain ⟨p, q, rfl⟩ : ∃ (p : Fin 50000) (q : Fin 128), i = ix2 p q := ⟨i 0, i 1, eq_ix2 i⟩
  rw [MeanAggregate.project_apply]
  unfold val_main_v1
  exact PlainDot.dotGeneral_apply _ dot_whole_plain none .single x0 _ p q

/-- The reference's last stage is the rectified mean of its aggregated features over its degree column. -/
theorem tail_eq (x0 : (⟨S50000x128, .f32⟩ : BufTy).Contents (Elt Ideal)) (x1 : (⟨S128x128, .f32⟩ : BufTy).Contents (Elt Ideal))
    (x2 : (⟨S1, .f32⟩ : BufTy).Contents (Elt Ideal)) (x3 x4 : (⟨S1600000, .i32⟩ : BufTy).Contents (Elt Ideal)) :
    val_main_v26 (F := Ideal) x0 x1 x2 x3 x4
      = MeanAggregate.normalise (val_main_v11 (F := Ideal) x0 x1 x3 x4) (val_main_v16 (F := Ideal) x3) x2 := by
  funext i
  obtain ⟨p, q, rfl⟩ : ∃ (p : Fin 50000) (q : Fin 128), i = ix2 p q := ⟨i 0, i 1, eq_ix2 i⟩
  have hcol : idx_main_v19 (ix2 p q) = ix2 p (0 : Fin 1) :=
    funext fun a => Fin.ext (by match a with | ⟨0, _⟩ => rfl | ⟨1, _⟩ => rfl)
  have hslope : val_main_v23 (F := Ideal) x2 (idx_main_v24 (ix2 p q)) = x2 (ix1 (0 : Fin 1)) := by
    unfold val_main_v23
    exact shapeCast_apply x2 shapeCasts_S1_S_ _ (ix1 (0 : Fin 1)) rfl
  rw [MeanAggregate.normalise_apply, val_main_v26_apply, val_main_v22_apply, val_main_v25_apply, val_main_v20_apply,
    val_main_v19_apply, val_main_v18_apply, val_main_v17_apply, val_main_v21_apply, val_main_v24_apply,
    val_main_cst_3_apply, val_main_cst_4_apply, hcol, hslope]
  rfl

/-- The summation along the edges, as the reference states it: the rows `y` gathered at the edges' sources (a negative
    source index counted from the end) and added into zeros at the edges' destinations. -/
def aggregate (y : (⟨S50000x128, .f32⟩ : BufTy).Contents (Elt Ideal))
    (rows cols : (⟨S1600000, .i32⟩ : BufTy).Contents (Elt Ideal)) : (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 rows)
    (Host.gather gather_S50000x128_S1600000x1_S1600000x128_1_0_n_n_0_1_1128 y
      (broadcastInDim S1600000x1 ![0] bcast_S1600000_S1600000x1_0
        (select (cmpi .slt cols (broadcastInDim S1600000 ![] bcast_S_S1600000 (constantI S_ 32 0#32)))
          (addi cols (broadcastInDim S1600000 ![] bcast_S_S1600000 (constantI S_ 32 50000#32))) cols)))

/-- The in-degrees as a column: ones added into zeros at the edges' destinations. -/
def degree (rows : (⟨S1600000, .i32⟩ : BufTy).Contents (Elt Ideal)) : (⟨S50000x1, .f32⟩ : BufTy).Contents (Elt Ideal) :=
  broadcastInDim S50000x1 ![0] bcast_S50000_S50000x1_0
    (Host.scatterAdd scatter_S50000_S1600000x1_S1600000_n_0_0_1
      (broadcastInDim S50000 ![] bcast_S_S50000 (constant (F := Ideal) S_ .f32 0x00000000#32))
      (broadcastInDim S1600000x1 ![0] bcast_S1600000_S1600000x1_0 rows)
      (broadcastInDim S1600000 ![] bcast_S_S1600000 (constant (F := Ideal) S_ .f32 0x3F800000#32)))

/-- The reference's aggregated features are the edge summation of its product. -/
theorem sums_eq (x0 : (⟨S50000x128, .f32⟩ : BufTy).Contents (Elt Ideal)) (x1 : (⟨S128x128, .f32⟩ : BufTy).Contents (Elt Ideal))
    (x3 x4 : (⟨S1600000, .i32⟩ : BufTy).Contents (Elt Ideal)) :
    val_main_v11 (F := Ideal) x0 x1 x3 x4 = aggregate (val_main_v1 (F := Ideal) x0 x1) x3 x4 := rfl

/-- The reference's degree column. -/
theorem degree_eq (x3 : (⟨S1600000, .i32⟩ : BufTy).Contents (Elt Ideal)) : val_main_v16 (F := Ideal) x3 = degree x3 := rfl

/-- THE REFERENCE'S RESULT as one function of the five arguments: the rectified mean of the edge summation of the
    projection by the transposed weight. -/
theorem result_eq (x0 : (⟨S50000x128, .f32⟩ : BufTy).Contents (Elt Ideal)) (x1 : (⟨S128x128, .f32⟩ : BufTy).Contents (Elt Ideal))
    (x2 : (⟨S1, .f32⟩ : BufTy).Contents (Elt Ideal)) (x3 x4 : (⟨S1600000, .i32⟩ : BufTy).Contents (Elt Ideal)) :
    val_main_v26 (F := Ideal) x0 x1 x2 x3 x4
      = MeanAggregate.normalise
          (aggregate (MeanAggregate.project x0 (transpose S128x128 [1, 0] x1 transposes_S128x128_S128x128_1_0)) x3 x4)
          (degree x3) x2 := by
  rw [tail_eq, sums_eq, degree_eq, product_eq]
  rfl

end Cert.ReferenceIdeal.RefValue

end
-- ==== Proof.lean ====
/-
  A graph layer that averages projected neighbour features and rectifies the mean: the kernel program against its
  plain reference, on the extended reals.

  Both programs take node features `x` (50000 × 128), a weight `w` (128 × 128), a slope `α`, and an edge list
  (`rows`, `cols`; 1600000 edges). Both compute, for node `p` and feature `q`,

      v = (Σ over edges e with rows e = p of (x · wᵀ)(cols e, q)) / (deg p + ε),      out (p, q) = v if v ≥ 0, else α · v,

  with `deg p` the number of edges into `p` and `ε` the f32 nearest to 1e-8. The kernel program does the projection
  `x · wᵀ` in a first kernel, 5000 rows at a time, and the division and rectification in a second kernel, again 5000
  rows at a time; the gather along `cols` and the two scatter-additions along `rows` are host operations in both
  programs, the same text, and are carried as one function that is never opened.

  On the extended reals a change of float format is the identity and a matrix product is the plain sum over the
  contracted coordinate however it is blocked, so the first kernel's array is the reference's product; the second
  kernel adds `ε` after spreading the degree column over the features where the reference adds it before, which is
  the same number entry by entry. No algebraic law beyond that is used: the precondition is never opened.

  The modules: `Spec` (the two dense stages as functions), `MatmulBlock` and `PreluBlock` (what one grid point of
  each kernel stores, entry by entry), `KernelArrays` (the ten blocks of each kernel tile its result array),
  `KernelRun` (the kernel program's run with its result buffer named), `RefValue` (the reference's term as the
  same function). The three frames are the generated ones; the idealisation rewrote nothing, so it is preserved
  trivially.
-/
import proofs.«111967_j36155034698032_1_alg».proof.Defs
import proofs.«111967_j36155034698032_1_alg».proof.Proof.Gen.Kernel
import proofs.«111967_j36155034698032_1_alg».proof.Proof.Gen.Kernel.Frame
import proofs.«111967_j36155034698032_1_alg».proof.Proof.Gen.KernelIdeal
import proofs.«111967_j36155034698032_1_alg».proof.Proof.Gen.KernelIdeal.Frame
import proofs.«111967_j36155034698032_1_alg».proof.Proof.Gen.ReferenceIdeal
import proofs.«111967_j36155034698032_1_alg».proof.Proof.Gen.ReferenceIdeal.Run
import proofs.«111967_j36155034698032_1_alg».proof.Proof.Gen.ReferenceIdeal.Read
import proofs.«111967_j36155034698032_1_alg».proof.Proof.Gen.Pre_finite_inputs
import proofs.«111967_j36155034698032_1_alg».proof.Proof.KernelRun
import proofs.«111967_j36155034698032_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals, from memories that agree on the five arguments, the kernel program's result buffer and
    the reference's end at one and the same array: the rectified mean of the edge summation of `x · wᵀ`. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v26_eq, Cert.ReferenceIdeal.RefValue.result_eq, e0, e1, e2, e3, e4]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
